-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x128 : Shape := ⟨4, ![4, 16, 4096, 128]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel

variable [Facts]

def fn {F : FTy → Type} [FloatOps F] (main_arg0 : FVec F S4x16x4096x128 .f32) (main_arg1 : FVec F S4x16x4096x128 .f32) (main_arg2 : FVec F S4x16x4096x128 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S4x16x4096x128 .f32 := Host.absf main_arg1
  let main_cst_0 : FVec F S_ .f32 := constant S_ .f32 0x7F800000#32
  let main_v5 : FVec F S4x16x4096x128 .f32 := broadcastInDim S4x16x4096x128 ![] bcast_S_S4x16x4096x128 main_cst_0
  let main_v6 : IVec S4x16x4096x128 1 := cmpf .olt main_v4 main_v5
  let main_c_1 : IVec S_ 1 := constantI S_ 1 1#1
  let main_v7 : IVec S_ 1 := (fun x v => Host.reduce IntOp.andi x v reducesTo_S4x16x4096x128_S_d0_1_2_3 h_S_) main_v6 main_c_1
  let main_v8 : IVec S_ 1 := andi main_v3 main_v7
  let main_v9 : FVec F S4x16x4096x128 .f32 := Host.absf main_arg2
  let main_cst_2 : FVec F S_ .f32 := constant S_ .f32 0x7F800000#32
  let main_v10 : FVec F S4x16x4096x128 .f32 := broadcastInDim S4x16x4096x128 ![] bcast_S_S4x16x4096x128 main_cst_2
  let main_v11 : IVec S4x16x4096x128 1 := cmpf .olt main_v9 main_v10
  let main_c_3 : IVec S_ 1 := constantI S_ 1 1#1
  let main_v12 : IVec S_ 1 := (fun x v => Host.reduce IntOp.andi x v reducesTo_S4x16x4096x128_S_d0_1_2_3 h_S_) main_v11 main_c_3
  let main_v13 : IVec S_ 1 := andi main_v8 main_v12
  main_v13
-- ==== Kernel.lean ====
abbrev S4x16x4096x128 : Shape := ⟨4, ![4, 16, 4096, 128]⟩
abbrev S4x16x128x4096 : Shape := ⟨4, ![4, 16, 128, 4096]⟩
abbrev S1x2x4096x128 : Shape := ⟨4, ![1, 2, 4096, 128]⟩
abbrev S1x2x128x4096 : Shape := ⟨4, ![1, 2, 128, 4096]⟩
abbrev S1x1x4096x128 : Shape := ⟨4, ![1, 1, 4096, 128]⟩
abbrev S4096x128 : Shape := ⟨2, ![4096, 128]⟩
abbrev S128x128 : Shape := ⟨2, ![128, 128]⟩
abbrev S128 : Shape := ⟨1, ![128]⟩
abbrev S128x1 : Shape := ⟨2, ![128, 1]⟩
abbrev S128x4096 : Shape := ⟨2, ![128, 4096]⟩
abbrev S1x1x128x4096 : Shape := ⟨4, ![1, 1, 128, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x4096, .f32⟩
  | .local _ .vmem, ⟨0, _⟩ => ⟨S1x2x4096x128, .f32⟩
  | .local _ .vmem, ⟨1, _⟩ => ⟨S1x2x4096x128, .f32⟩
  | .local _ .vmem, ⟨2, _⟩ => ⟨S1x2x4096x128, .f32⟩
  | .local _ .vmem, ⟨3, _⟩ => ⟨S1x2x4096x128, .f32⟩
  | .local _ .vmem, ⟨4, _⟩ => ⟨S1x2x4096x128, .f32⟩
  | .local _ .vmem, ⟨5, _⟩ => ⟨S1x2x4096x128, .f32⟩
  | .local _ .vmem, ⟨6, _⟩ => ⟨S1x2x128x4096, .f32⟩
  | .local _ .vmem, ⟨7, _⟩ => ⟨S1x2x128x4096, .f32⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2x4096x128_S1x1x4096x128_0_0_0_0 : ∀ a, (![0, 0, 0, 0] : Fin 4 → Nat) a + S1x1x4096x128.size a ≤ S1x2x4096x128.size a
  h_S1x1x4096x128 : 0 < S1x1x4096x128.numel
  shapeCasts_S1x1x4096x128_S4096x128 : S1x1x4096x128.ShapeCasts S4096x128
  bitsLt_bf16_f32 : FTy.bits .bf16 < FTy.bits .f32
  reduces_S128x128_S128 : S128x128.Reduces [1] S128
  shapeCasts_S128_S128x1 : S128.ShapeCasts S128x1
  broadcasts_S128x1_S128x128 : S128x1.Broadcasts S128x128
  inb_S1x2x128x4096_S1x1x128x4096_0_0_0_0 : ∀ a, (![0, 0, 0, 0] : Fin 4 → Nat) a + S1x1x128x4096.size a ≤ S1x2x128x4096.size a
  h_S1x1x128x4096 : 0 < S1x1x128x4096.numel
  shapeCasts_S1x1x128x4096_S128x4096 : S1x1x128x4096.ShapeCasts S128x4096
  shapeCasts_S128x4096_S1x1x128x4096 : S128x4096.ShapeCasts S1x1x128x4096
  inb_S1x2x4096x128_S1x1x4096x128_0_1_0_0 : ∀ a, (![0, 1, 0, 0] : Fin 4 → Nat) a + S1x1x4096x128.size a ≤ S1x2x4096x128.size a
  inb_S1x2x128x4096_S1x1x128x4096_0_1_0_0 : ∀ a, (![0, 1, 0, 0] : Fin 4 → Nat) a + S1x1x128x4096.size a ≤ S1x2x128x4096.size a
  dot_S4096x128_S4096x128_S128x128_0_0_1_1_n_n_wf : DotDims.WF S4096x128 S4096x128 S128x128 [0] [0] [1] [1] [] []
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096x128.size a ≤ S4x16x4096x128.size a
  hwx0_0 : ∀ i : grid0.Coords, EltTy.bits .f32 = 32 ∨ (Rect.block (s := S4x16x4096x128) S1x2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096x128.size a ≤ S4x16x4096x128.size a
  hwx0_1 : ∀ i : grid0.Coords, EltTy.bits .f32 = 32 ∨ (Rect.block (s := S4x16x4096x128) S1x2x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096x128.size a ≤ S4x16x4096x128.size a
  hwx0_2 : ∀ i : grid0.Coords, EltTy.bits .f32 = 32 ∨ (Rect.block (s := S4x16x4096x128) S1x2x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x128x4096.size a ≤ S4x16x128x4096.size a
  hwx0_3 : ∀ i : grid0.Coords, EltTy.bits .f32 = 32 ∨ (Rect.block (s := S4x16x128x4096) S1x2x128x4096.size (cc0_transform_3 i) (hinb0_3 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_arg0) S1x2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x128 : Shape := ⟨4, ![4, 16, 4096, 128]⟩
abbrev S4x16x128x128 : Shape := ⟨4, ![4, 16, 128, 128]⟩
abbrev S_ : Shape := ⟨0, ![]⟩
abbrev S4x16x128 : Shape := ⟨3, ![4, 16, 128]⟩
abbrev S4x16x128x1 : Shape := ⟨4, ![4, 16, 128, 1]⟩
abbrev S4x16x128x4096 : Shape := ⟨4, ![4, 16, 128, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S_, .f32⟩
  | .hbm, ⟨5, _⟩ => ⟨S4x16x128x128, .f32⟩
  | .hbm, ⟨6, _⟩ => ⟨S4x16x128x128, .f32⟩
  | .hbm, ⟨7, _⟩ => ⟨S_, .f32⟩
  | .hbm, ⟨8, _⟩ => ⟨S4x16x128, .f32⟩
  | .hbm, ⟨9, _⟩ => ⟨S_, .f32⟩
  | .hbm, ⟨10, _⟩ => ⟨S4x16x128, .f32⟩
  | .hbm, ⟨11, _⟩ => ⟨S4x16x128, .f32⟩
  | .hbm, ⟨12, _⟩ => ⟨S4x16x128x1, .f32⟩
  | .hbm, ⟨13, _⟩ => ⟨S4x16x128x128, .f32⟩
  | .hbm, ⟨14, _⟩ => ⟨S4x16x128x128, .f32⟩
  | .hbm, ⟨15, _⟩ => ⟨S4x16x128x128, .f32⟩
  | .hbm, ⟨16, _⟩ => ⟨S_, .f32⟩
  | .hbm, ⟨17, _⟩ => ⟨S4x16x128, .f32⟩
  | .hbm, ⟨18, _⟩ => ⟨S4x16x128x1, .f32⟩
  | .hbm, ⟨19, _⟩ => ⟨S4x16x128x128, .f32⟩
  | .hbm, ⟨20, _⟩ => ⟨S4x16x128x128, .f32⟩
  | .hbm, ⟨21, _⟩ => ⟨S4x16x128x4096, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x128x128 : S_.BroadcastsInDim S4x16x128x128 (![] : Fin 0 → Fin S4x16x128x128.rank)
  reducesTo_S4x16x128x128_S4x16x128_d3 : S4x16x128x128.ReducesTo [3] S4x16x128
  h_S_ : 0 < S_.numel
  bcast_S_S4x16x128 : S_.BroadcastsInDim S4x16x128 (![] : Fin 0 → Fin S4x16x128.rank)
  bcast_S4x16x128_S4x16x128x1_0_1_2 : S4x16x128.BroadcastsInDim S4x16x128x1 (![0, 1, 2] : Fin 3 → Fin S4x16x128x1.rank)
  bcast_S4x16x128x1_S4x16x128x128_0_1_2_3 : S4x16x128x1.BroadcastsInDim S4x16x128x128 (![0, 1, 2, 3] : Fin 4 → Fin S4x16x128x128.rank)
  dot_S4x16x4096x128_S4x16x4096x128_S4x16x128x128_2_2_3_3_01_01_wf : DotDims.WF S4x16x4096x128 S4x16x4096x128 S4x16x128x128 [2] [2] [3] [3] [0, 1] [0, 1]
  dot_S4x16x128x128_S4x16x4096x128_S4x16x128x4096_3_3_2_2_01_01_wf : DotDims.WF S4x16x128x128 S4x16x4096x128 S4x16x128x4096 [3] [3] [2] [2] [0, 1] [0, 1]

variable [Facts₀]

def dot_S4x16x4096x128_S4x16x4096x128_S4x16x128x128_2_2_3_3_01_01 : DotDims S4x16x4096x128 S4x16x4096x128 S4x16x128x128 where
  lhsContracting := [2]
  rhsContracting := [2]
  lhsNonContracting := [3]
  rhsNonContracting := [3]
  lhsBatch := [0, 1]
  rhsBatch := [0, 1]
  wf := dot_S4x16x4096x128_S4x16x4096x128_S4x16x128x128_2_2_3_3_01_01_wf
def dot_S4x16x128x128_S4x16x4096x128_S4x16x128x4096_3_3_2_2_01_01 : DotDims S4x16x128x128 S4x16x4096x128 S4x16x128x4096 where
  lhsContracting := [3]
  rhsContracting := [3]
  lhsNonContracting := [2]
  rhsNonContracting := [2]
  lhsBatch := [0, 1]
  rhsBatch := [0, 1]
  wf := dot_S4x16x128x128_S4x16x4096x128_S4x16x128x4096_3_3_2_2_01_01_wf

class Facts : Prop extends Facts₀ where

variable [Facts]
-- ==== Proof.Spec.lean ====
/-
  Feature attention, one (batch, head) slice at a time, on the extended reals.

  For a slice with query, key and value matrices `q k v : [4096, 128]` (rows the sequence position `s`, columns the
  feature), the attention matrix is over FEATURES: `score d e = c · Σ_s q s d · k s e` (a 128 × 128 matrix, the sequence
  axis contracted), each row `d` is normalised by a softmax over `e` — the row's maximum `M d` (a fold of `max` from the
  starting value `b`) subtracted before the exponential, the exponentials divided by their row sum —, and the result is
  `out d s = Σ_e p d e · v s e` (a 128 × 4096 matrix).  `G` is that function applied to every (batch, head) slice of
  the three [4, 16, 4096, 128] arguments, giving a [4, 16, 128, 4096] array.
-/
import Idealize.ShloMosaic.PureOps.Ideal
import Idealize.ShloMosaic.Lib.ValueIdx

noncomputable section

namespace Cert.FeatureAttention

open Idealize.ShloMosaic Idealize.ShloMosaic.ValueIdx

/-- The shape of each argument: batch, head, sequence position, feature. -/
abbrev SArg : Shape := ⟨4, ![4, 16, 4096, 128]⟩
/-- The shape of the result: batch, head, feature, sequence position. -/
abbrev SRes : Shape := ⟨4, ![4, 16, 128, 4096]⟩

/-- The scale both programs multiply the scores by: the f32 word of 1/4 (= 1/√16, the head count's root). -/
abbrev quarter : EReal := Ideal.ofBits .f32 0x3E800000#32
/-- The value both programs start a row's maximum from: the f32 word of −∞. -/
abbrev negInf : EReal := Ideal.ofBits .f32 0xFF800000#32

/-- A slice's matrices: rows the sequence position, columns the feature. -/
abbrev Mat : Type := Fin 4096 → Fin 128 → EReal

/-- The scaled feature-by-feature score: the sequence axis contracted, times the scale `c`. -/
def score (c : EReal) (q k : Mat) (d e : Fin 128) : EReal := (∑ s : Fin 4096, q s d * k s e) * c

/-- A row's maximum: the fold of `max` over the row, from `b`. -/
def rowMax (b : EReal) (f : Fin 128 → EReal) : EReal := (Finset.univ : Finset (Fin 128)).fold max b f

/-- The shifted exponential of a score: the row's maximum subtracted first. -/
def shifted (c b : EReal) (q k : Mat) (d e : Fin 128) : EReal :=
  Ideal.exp (score c q k d e - rowMax b (score c q k d))

/-- The softmax weight: the shifted exponential over its row's sum. -/
def weight (c b : EReal) (q k : Mat) (d e : Fin 128) : EReal :=
  Ideal.div (shifted c b q k d e) (∑ e' : Fin 128, shifted c b q k d e')

/-- One slice's result at feature `d`, position `s`: the weights of row `d` against row `s` of the values. -/
def headOut (c b : EReal) (q k v : Mat) (d : Fin 128) (s : Fin 4096) : EReal :=
  ∑ e : Fin 128, weight c b q k d e * v s e

/-- The (batch, head) slice of an argument array as a matrix. -/
def slice (x : SArg.Idx → EReal) (b : Fin 4) (h : Fin 16) : Mat := fun s d => x (ix4 b h s d)

/-- THE RESULT ARRAY as one function of the argument arrays, index by index. -/
def G (c b : EReal) (q k v : SArg.Idx → EReal) : SRes.Idx → EReal := fun i =>
  headOut c b (slice q (i 0) (i 1)) (slice k (i 0) (i 1)) (slice v (i 0) (i 1)) (i 2) (i 3)

theorem G_ix4 (c b : EReal) (q k v : SArg.Idx → EReal) (bb : Fin 4) (h : Fin 16) (d : Fin 128) (s : Fin 4096) :
    G c b q k v (ix4 bb h d s) = headOut c b (slice q bb h) (slice k bb h) (slice v bb h) d s := rfl

/-- Folding `max` from `b` already dominates `b`: taking the maximum with `b` once more changes nothing. -/
theorem max_rowMax (b : EReal) (f : Fin 128 → EReal) : max b (rowMax b f) = rowMax b f :=
  max_eq_right ((Finset.le_fold_max b).2 (Or.inl le_rfl))

end Cert.FeatureAttention

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.HeadValue.lean ====
/-
  One head of the kernel's body, read at an index.

  For one head the body takes the head's three [4096, 128] matrices and computes, as whole vectors: the 128 × 128 product
  contracting the rows (the sequence axis) into a zero accumulator, times the scale; each row's maximum (a lane reduction
  from −∞, kept as a column and broadcast back along the row); the exponential of the difference; each row's sum (a lane
  reduction from 0, kept and broadcast the same way); the quotient; and the 128 × 4096 product with the value matrix
  contracting the feature axis.  Read at `(d, e)` or `(d, s)`, each stage is the matching piece of `FeatureAttention`'s
  one-slice function of the three matrices.
-/
import proofs.«120604_j13554916786727_2_alg».proof.Proof.Gen.KernelIdeal.Skeleton
import proofs.«120604_j13554916786727_2_alg».proof.Proof.Spec
import proofs.«120604_j13554916786727_2_alg».proof.Proof.LibLayout
import Idealize.ShloMosaic.PureOps.Ideal.Laws

noncomputable section

namespace Cert.FeatureAttention.Kernel

open Cert.KernelIdeal Cert.KernelIdeal.Gen
open Idealize.ShloMosaic Idealize.ShloMosaic.ValueIdx Cert.FeatureAttention

/-- The dimension numbers of the score product: rows contracted, columns kept. -/
abbrev dotScore : DotDims S4096x128 S4096x128 S128x128 := dot_S4096x128_S4096x128_S128x128_0_0_1_1_n_n
/-- The dimension numbers of the output product: the feature axis of both operands contracted. -/
abbrev dotOut : DotDims S128x128 S4096x128 S128x4096 := dot_S128x128_S4096x128_S128x4096_1_1_0_0_n_n

/-- A head's [4096, 128] vector as a matrix of extended reals. -/
def mat (X : FVec Ideal S4096x128 .bf16) : Mat := fun s d => X (ix2 s d)

/-! ## The stages as vectors -/

/-- The scaled scores. -/
def scoreVec (Q K : FVec Ideal S4096x128 .bf16) : FVec Ideal S128x128 .f32 :=
  mulf (matmul dotScore none Q K (constant S128x128 .f32 0x00000000#32)) (broadcast S128x128 (Scalar.ofBits .f32 0x3E800000#32))

/-- A [128] vector kept as a column and broadcast back along the rows. -/
def alongRows (v : FVec Ideal S128 .f32) : FVec Ideal S128x128 .f32 :=
  broadcastTo S128x128 (shapeCast S128x1 v shapeCasts_S128_S128x1) broadcasts_S128x1_S128x128

/-- The shifted exponentials. -/
def shiftVec (Q K : FVec Ideal S4096x128 .bf16) : FVec Ideal S128x128 .f32 :=
  exp (subf (scoreVec Q K)
    (alongRows (multiReduction .maximumf [1] S128 (scoreVec Q K) 0xFF800000#32 reduces_S128x128_S128 (.inl rfl) rfl)))

/-- The softmax weights. -/
def weightVec (Q K : FVec Ideal S4096x128 .bf16) : FVec Ideal S128x128 .bf16 :=
  truncf .bf16 (divf (shiftVec Q K)
    (alongRows (multiReduction .add [1] S128 (shiftVec Q K) 0x00000000#32 reduces_S128x128_S128 (.inl rfl) rfl))) bitsLt_bf16_f32

/-- The head's result. -/
def headVec (Q K V : FVec Ideal S4096x128 .bf16) : FVec Ideal S128x4096 .f32 :=
  matmul dotOut none (weightVec Q K) V (constant S128x4096 .f32 0x00000000#32)

/-! ## The two products at an index -/

/-- The score product keeps the left operand's column: its index on axis 1 is the result's row. -/
theorem scoreL_keep (j : S128x128.Idx) (q : dotScore.contr.Idx) : (dotScore.lhsIdx j q 1).val = (j 0).val := by
  unfold DotDims.lhsIdx
  rw [dif_neg (show ¬(1 : Fin S4096x128.rank) ∈ dotScore.lhsBatch by decide), dif_pos (show (1 : Fin S4096x128.rank) ∈ dotScore.lhsNonContracting by decide)]
  rfl

/-- … and the right operand's column: its index on axis 1 is the result's column. -/
theorem scoreR_keep (j : S128x128.Idx) (q : dotScore.contr.Idx) : (dotScore.rhsIdx j q 1).val = (j 1).val := by
  unfold DotDims.rhsIdx
  rw [dif_neg (show ¬(1 : Fin S4096x128.rank) ∈ dotScore.rhsBatch by decide), dif_pos (show (1 : Fin S4096x128.rank) ∈ dotScore.rhsNonContracting by decide)]
  rfl

/-- The output product keeps the weights' row … -/
theorem outL_keep (j : S128x4096.Idx) (q : dotOut.contr.Idx) : (dotOut.lhsIdx j q 0).val = (j 0).val := by
  unfold DotDims.lhsIdx
  rw [dif_neg (show ¬(0 : Fin S128x128.rank) ∈ dotOut.lhsBatch by decide), dif_pos (show (0 : Fin S128x128.rank) ∈ dotOut.lhsNonContracting by decide)]
  rfl

/-- … and the values' row, which is the result's column. -/
theorem outR_keep (j : S128x4096.Idx) (q : dotOut.contr.Idx) : (dotOut.rhsIdx j q 0).val = (j 1).val := by
  unfold DotDims.rhsIdx
  rw [dif_neg (show ¬(0 : Fin S4096x128.rank) ∈ dotOut.rhsBatch by decide), dif_pos (show (0 : Fin S4096x128.rank) ∈ dotOut.rhsNonContracting by decide)]
  rfl

/-- The score product at `(d, e)` sums, over the rows `s`, column `d` of the left against column `e` of the right. -/
theorem scoreDot_apply (Q K : FVec Ideal S4096x128 .bf16) (d e : Fin 128) :
    matmul dotScore none Q K (constant (F := Ideal) S128x128 .f32 0x00000000#32) (ix2 d e)
      = ∑ s : Fin 4096, Q (ix2 s d) * K (ix2 s e) := by
  simp only [matmul]
  rw [Ideal.matmul_constant_zero_apply, ← Equiv.sum_comp (contrEquiv1 dotScore 4096 rfl rfl).symm]
  refine Finset.sum_congr rfl fun k _ => ?_
  have hk := contrEquiv1_symm_val dotScore 4096 rfl rfl k
  have el : dotScore.lhsIdx (ix2 d e) ((contrEquiv1 dotScore 4096 rfl rfl).symm k) = ix2 k d := funext fun a => Fin.ext (by
    match a with
    | ⟨0, _⟩ => exact (dotScore.lhsIdx_val_of_single rfl _ _).trans hk
    | ⟨1, _⟩ => exact scoreL_keep _ _)
  have er : dotScore.rhsIdx (ix2 d e) ((contrEquiv1 dotScore 4096 rfl rfl).symm k) = ix2 k e := funext fun a => Fin.ext (by
    match a with
    | ⟨0, _⟩ => exact (dotScore.rhsIdx_val_of_single rfl _ _).trans hk
    | ⟨1, _⟩ => exact scoreR_keep _ _)
  rw [el, er]

/-- The output product at `(d, s)` sums, over the features `e`, row `d` of the weights against row `s` of the values. -/
theorem outDot_apply (P : FVec Ideal S128x128 .bf16) (V : FVec Ideal S4096x128 .bf16) (d : Fin 128) (s : Fin 4096) :
    matmul dotOut none P V (constant (F := Ideal) S128x4096 .f32 0x00000000#32) (ix2 d s)
      = ∑ e : Fin 128, P (ix2 d e) * V (ix2 s e) := by
  simp only [matmul]
  rw [Ideal.matmul_constant_zero_apply, ← Equiv.sum_comp (contrEquiv1 dotOut 128 rfl rfl).symm]
  refine Finset.sum_congr rfl fun k _ => ?_
  have hk := contrEquiv1_symm_val dotOut 128 rfl rfl k
  have el : dotOut.lhsIdx (ix2 d s) ((contrEquiv1 dotOut 128 rfl rfl).symm k) = ix2 d k := funext fun a => Fin.ext (by
    match a with
    | ⟨0, _⟩ => exact outL_keep _ _
    | ⟨1, _⟩ => exact (dotOut.lhsIdx_val_of_single rfl _ _).trans hk)
  have er : dotOut.rhsIdx (ix2 d s) ((contrEquiv1 dotOut 128 rfl rfl).symm k) = ix2 s k := funext fun a => Fin.ext (by
    match a with
    | ⟨0, _⟩ => exact outR_keep _ _
    | ⟨1, _⟩ => exact (dotOut.rhsIdx_val_of_single rfl _ _).trans hk)
  rw [el, er]

/-! ## The lane reductions and the kept column at an index -/

/-- The source index of a lane reduction: the row with the lane put back. -/
theorem lift_lane (d e : Fin 128) : reduces_S128x128_S128.lift (ix1 d) e = ix2 d e :=
  funext fun a => Fin.ext (by match a with | ⟨0, _⟩ => rfl | ⟨1, _⟩ => rfl)

/-- A row's maximum: the fold of `max` from −∞ over the row. -/
theorem laneMax_apply (X : FVec Ideal S128x128 .f32) (d : Fin 128) :
    multiReduction .maximumf [1] S128 X 0xFF800000#32 reduces_S128x128_S128 (.inl rfl) rfl (ix1 d)
      = rowMax negInf (fun e => X (ix2 d e)) :=
  (Ideal.multiReduction_maximumf_single X 0xFF800000#32 reduces_S128x128_S128 (.inl rfl) rfl (ix1 d)).trans
    (congrArg (Finset.univ.fold max negInf) (funext fun e => congrArg X (lift_lane d e)))

/-- A row's sum. -/
theorem laneSum_apply (X : FVec Ideal S128x128 .f32) (d : Fin 128) :
    multiReduction .add [1] S128 X 0x00000000#32 reduces_S128x128_S128 (.inl rfl) rfl (ix1 d)
      = ∑ e : Fin 128, X (ix2 d e) :=
  (Ideal.multiReduction_add_single X 0x00000000#32 reduces_S128x128_S128 (.inl rfl) rfl (ix1 d)).trans
    (Finset.sum_congr rfl fun e _ => congrArg X (lift_lane d e))

/-- The kept column broadcast back reads entry `d` all along row `d`. -/
theorem alongRows_apply (v : FVec Ideal S128 .f32) (d e : Fin 128) : alongRows v (ix2 d e) = v (ix1 d) :=
  (broadcastTo_a1_ab_apply _ broadcasts_S128x1_S128x128 d e).trans (shapeCast_a_a1_apply v shapeCasts_S128_S128x1 d 0)

/-! ## The stages at an index -/

theorem scoreVec_apply (Q K : FVec Ideal S4096x128 .bf16) (d e : Fin 128) :
    scoreVec Q K (ix2 d e) = score quarter (mat Q) (mat K) d e :=
  congrArg (· * quarter) (scoreDot_apply Q K d e)

theorem shiftVec_apply (Q K : FVec Ideal S4096x128 .bf16) (d e : Fin 128) :
    shiftVec Q K (ix2 d e) = shifted quarter negInf (mat Q) (mat K) d e :=
  congrArg Ideal.exp (congrArg₂ (· - ·) (scoreVec_apply Q K d e)
    ((alongRows_apply _ d e).trans ((laneMax_apply _ d).trans
      (congrArg (rowMax negInf) (funext fun e' => scoreVec_apply Q K d e')))))

theorem weightVec_apply (Q K : FVec Ideal S4096x128 .bf16) (d e : Fin 128) :
    weightVec Q K (ix2 d e) = weight quarter negInf (mat Q) (mat K) d e :=
  congrArg₂ Ideal.div (shiftVec_apply Q K d e)
    ((alongRows_apply _ d e).trans ((laneSum_apply _ d).trans
      (Finset.sum_congr rfl fun e' _ => shiftVec_apply Q K d e')))

/-- ONE HEAD'S RESULT at feature `d`, position `s`. -/
theorem headVec_apply (Q K V : FVec Ideal S4096x128 .bf16) (d : Fin 128) (s : Fin 4096) :
    headVec Q K V (ix2 d s) = headOut quarter negInf (mat Q) (mat K) (mat V) d s :=
  (outDot_apply (weightVec Q K) V d s).trans
    (Finset.sum_congr rfl fun e _ => congrArg (· * V (ix2 s e)) (weightVec_apply Q K d e))

/-! ## The body's two payloads are one head each -/

/-- The first head's payload: the head's function of the three loaded pieces, cast to matrices. -/
theorem pay_head0 (v0 v3 v6 : Vec Ideal S1x1x4096x128 .f32) :
    k0_pay2 v0 v3 v6
      = shapeCast S1x1x128x4096 (headVec
          (truncf .bf16 (shapeCast S4096x128 v0 shapeCasts_S1x1x4096x128_S4096x128) bitsLt_bf16_f32)
          (truncf .bf16 (shapeCast S4096x128 v3 shapeCasts_S1x1x4096x128_S4096x128) bitsLt_bf16_f32)
          (truncf .bf16 (shapeCast S4096x128 v6 shapeCasts_S1x1x4096x128_S4096x128) bitsLt_bf16_f32))
          shapeCasts_S128x4096_S1x1x128x4096 := rfl

/-- The second head's payload likewise (its query matrix was cast before the other two were loaded). -/
theorem pay_head1 (v26 v29 v32 : Vec Ideal S1x1x4096x128 .f32) :
    k0_pay1 (k0_pay3 v26) v29 v32
      = shapeCast S1x1x128x4096 (headVec
          (truncf .bf16 (shapeCast S4096x128 v26 shapeCasts_S1x1x4096x128_S4096x128) bitsLt_bf16_f32)
          (truncf .bf16 (shapeCast S4096x128 v29 shapeCasts_S1x1x4096x128_S4096x128) bitsLt_bf16_f32)
          (truncf .bf16 (shapeCast S4096x128 v32 shapeCasts_S1x1x4096x128_S4096x128) bitsLt_bf16_f32))
          shapeCasts_S128x4096_S1x1x128x4096 := rfl

end Cert.FeatureAttention.Kernel

end
-- ==== Proof.BlockValue.lean ====
/-
  What the body leaves in its output block, as one function of its three input blocks.

  A grid point's blocks hold two heads of one batch entry: the input blocks are [1, 2, 4096, 128], the output block
  [1, 2, 128, 4096].  The body stores head 0's result through the rectangle at head offset 0 and head 1's through the
  one at head offset 1; the two rectangles tile the block.  So the block the body leaves is, at `(u, hh, d, s)`, the
  one-slice function of head `hh`'s three matrices at `(d, s)` — for either head, from either store.
-/
import proofs.«120604_j13554916786727_2_alg».proof.Proof.Gen.KernelIdeal.Frame
import proofs.«120604_j13554916786727_2_alg».proof.Proof.HeadValue

noncomputable section

namespace Cert.FeatureAttention.Kernel

open Cert.KernelIdeal Cert.KernelIdeal.Gen
open Idealize.ShloMosaic Idealize.ShloMosaic.ValueIdx Cert.FeatureAttention

/-- An input block at `Ideal`. -/
abbrev InBlock : Type := Vec Ideal S1x2x4096x128 .f32

/-- Head `hh` of an input block as a matrix. -/
def blockSlice (x : InBlock) (u : Fin 1) (hh : Fin 2) : Mat := fun s d => x (ix4 u hh s d)

/-- THE OUTPUT BLOCK as one function of the three input blocks. -/
def blockOut (x0 x1 x2 : InBlock) : Vec Ideal S1x2x128x4096 .f32 := fun y =>
  headOut quarter negInf (blockSlice x0 (y 0) (y 1)) (blockSlice x1 (y 0) (y 1)) (blockSlice x2 (y 0) (y 1)) (y 2) (y 3)

theorem blockOut_ix4 (x0 x1 x2 : InBlock) (u : Fin 1) (hh : Fin 2) (d : Fin 128) (s : Fin 4096) :
    blockOut x0 x1 x2 (ix4 u hh d s)
      = headOut quarter negInf (blockSlice x0 u hh) (blockSlice x1 u hh) (blockSlice x2 u hh) d s := rfl

/-! ## A loaded head, cast to a matrix, is that head of the block -/

theorem mat_head0 (x : InBlock) :
    mat (truncf .bf16 (shapeCast S4096x128 (View.ld x r0_0) shapeCasts_S1x1x4096x128_S4096x128) bitsLt_bf16_f32)
      = blockSlice x 0 0 := by
  funext s d
  refine (shapeCast_11ab_ab_apply (View.ld x r0_0) shapeCasts_S1x1x4096x128_S4096x128 s d).trans ?_
  show x (r0_0.idx (ix4 (0 : Fin 1) (0 : Fin 1) s d)) = x (ix4 (0 : Fin 1) (0 : Fin 2) s d)
  refine congrArg x (funext fun a => Fin.ext ?_)
  match a with
  | ⟨0, _⟩ => rfl
  | ⟨1, _⟩ => rfl
  | ⟨2, _⟩ => show 0 + 1 * s.val = s.val; omega
  | ⟨3, _⟩ => show 0 + 1 * d.val = d.val; omega

theorem mat_head1 (x : InBlock) :
    mat (truncf .bf16 (shapeCast S4096x128 (View.ld x r0_2) shapeCasts_S1x1x4096x128_S4096x128) bitsLt_bf16_f32)
      = blockSlice x 0 1 := by
  funext s d
  refine (shapeCast_11ab_ab_apply (View.ld x r0_2) shapeCasts_S1x1x4096x128_S4096x128 s d).trans ?_
  show x (r0_2.idx (ix4 (0 : Fin 1) (0 : Fin 1) s d)) = x (ix4 (0 : Fin 1) (1 : Fin 2) s d)
  refine congrArg x (funext fun a => Fin.ext ?_)
  match a with
  | ⟨0, _⟩ => rfl
  | ⟨1, _⟩ => rfl
  | ⟨2, _⟩ => show 0 + 1 * s.val = s.val; omega
  | ⟨3, _⟩ => show 0 + 1 * d.val = d.val; omega

/-! ## Each store's payload is the block function on its rectangle -/

/-- Where the first store's rectangle puts its local index: head 0. -/
theorem emb_store0 (u u' : Fin 1) (d : Fin 128) (s : Fin 4096) :
    r0_1.emb (ix4 u u' d s) = ix4 (0 : Fin 1) (0 : Fin 2) d s := by
  have hu : u.val = 0 := by omega
  have hu' : u'.val = 0 := by omega
  refine funext fun a => Fin.ext ?_
  match a with
  | ⟨0, _⟩ => show 0 + 1 * u.val = 0; omega
  | ⟨1, _⟩ => show 0 + 1 * u'.val = 0; omega
  | ⟨2, _⟩ => show 0 + 1 * d.val = d.val; omega
  | ⟨3, _⟩ => show 0 + 1 * s.val = s.val; omega

/-- Where the second store's rectangle puts its local index: head 1. -/
theorem emb_store1 (u u' : Fin 1) (d : Fin 128) (s : Fin 4096) :
    r0_3.emb (ix4 u u' d s) = ix4 (0 : Fin 1) (1 : Fin 2) d s := by
  have hu : u.val = 0 := by omega
  have hu' : u'.val = 0 := by omega
  refine funext fun a => Fin.ext ?_
  match a with
  | ⟨0, _⟩ => show 0 + 1 * u.val = 0; omega
  | ⟨1, _⟩ => show 1 + 1 * u'.val = 1; omega
  | ⟨2, _⟩ => show 0 + 1 * d.val = d.val; omega
  | ⟨3, _⟩ => show 0 + 1 * s.val = s.val; omega

theorem store0_eq (x0 x1 x2 : InBlock) (x : S1x1x128x4096.Idx) :
    k0_pay2 (F := Ideal) (View.ld x0 r0_0) (View.ld x1 r0_0) (View.ld x2 r0_0) x = blockOut x0 x1 x2 (r0_1.emb x) := by
  obtain ⟨u, u', d, s, rfl⟩ : ∃ (u u' : Fin 1) (d : Fin 128) (s : Fin 4096), x = ix4 u u' d s :=
    ⟨x 0, x 1, x 2, x 3, eq_ix4 x⟩
  rw [pay_head0, emb_store0, blockOut_ix4]
  refine (shapeCast_ab_11ab_apply _ shapeCasts_S128x4096_S1x1x128x4096 u u' d s).trans ((headVec_apply _ _ _ d s).trans ?_)
  rw [mat_head0, mat_head0, mat_head0]

theorem store1_eq (x0 x1 x2 : InBlock) (x : S1x1x128x4096.Idx) :
    k0_pay1 (F := Ideal) (k0_pay3 (View.ld x0 r0_2)) (View.ld x1 r0_2) (View.ld x2 r0_2) x = blockOut x0 x1 x2 (r0_3.emb x) := by
  obtain ⟨u, u', d, s, rfl⟩ : ∃ (u u' : Fin 1) (d : Fin 128) (s : Fin 4096), x = ix4 u u' d s :=
    ⟨x 0, x 1, x 2, x 3, eq_ix4 x⟩
  rw [pay_head1, emb_store1, blockOut_ix4]
  refine (shapeCast_ab_11ab_apply _ shapeCasts_S128x4096_S1x1x128x4096 u u' d s).trans ((headVec_apply _ _ _ d s).trans ?_)
  rw [mat_head1, mat_head1, mat_head1]

/-- THE BLOCK THE BODY LEAVES is the block function of its input blocks: both stores agree with it on their
    rectangles, and the rectangles cover the block. -/
theorem out_eq_blockOut (x0 x1 x2 : InBlock) : out0_3 (F := Ideal) x0 x1 x2 = blockOut x0 x1 x2 := by
  funext y
  unfold out0_3
  refine View.canon_apply_of_pieces (Val := Elt Ideal) (blockOut x0 x1 x2) _ (fun p hp x => ?_) y (cover0_3 _ _ y)
  rcases List.mem_cons.mp hp with rfl | hp
  · exact store1_eq x0 x1 x2 x
  · rcases List.mem_cons.mp hp with rfl | hp
    · exact store0_eq x0 x1 x2 x
    · exact absurd hp List.not_mem_nil

end Cert.FeatureAttention.Kernel

end
-- ==== Proof.ArrayValue.lean ====
/-
  From the blocks to the whole result array.

  The grid has one point per (batch entry, pair of heads): point `t` reads block `(b, p)` of each argument — batch
  entry `b`, heads `2p` and `2p + 1`, every sequence position and feature — and writes block `(b, p)` of the result.
  All four windows move together, and the blocks tile the arrays.  Since the block the body leaves is the one-slice
  function of the heads of its input blocks (`blockOut`), what point `t` writes back is block `t` of `G` of the whole
  argument arrays; every index of the result lies in some point's block; so the result array ends holding `G`.
-/
import proofs.«120604_j13554916786727_2_alg».proof.Proof.Gen.KernelIdeal.Value
import proofs.«120604_j13554916786727_2_alg».proof.Proof.BlockValue

noncomputable section

namespace Cert.FeatureAttention.Kernel

open Cert.KernelIdeal Cert.KernelIdeal.Gen
open Idealize.ShloMosaic Idealize.ShloMosaic.TcCoe Idealize.SL.Sem
open Idealize.ShloMosaic.Pipeline (Dat)
open Idealize.ShloMosaic.ValueIdx Cert.FeatureAttention

variable (m : (ℓ : Loc nD τ sig) → Buf (Elt Ideal) ℓ) (ρ : Dev nD → PrngReg)

/-! ## The index maps over the grid -/

/-- Every input window's block index is the output window's on the batch and head-pair axes and zero on the other
    two, where the output's is zero too; the output's batch and head-pair indices stay in range. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) ≤ 3 ∧ win0_3.index t (1 : Fin 4) ≤ 7 :=
  (by decide +kernel : ∀ t : Fin grid0.N, _)

/-- Every (batch entry, head pair) is some point's. -/
theorem idx_onto : ∀ (q0 : Fin 4) (q1 : Fin 8), ∃ t : Fin cfg0.N, win0_3.index t = ![q0.val, q1.val, 0, 0] :=
  (by decide +kernel : ∀ (q0 : Fin 4) (q1 : Fin 8), ∃ t : Fin grid0.N, win0_3.index t = ![q0.val, q1.val, 0, 0])

/-! ## The block function against the whole-array function -/

/-- If the three input blocks are the argument arrays' slices at batch entry `b` and head `h`, the block function at
    `(u, hh, d, s)` is `G` at the result index `i` whose coordinates are `(b, h, d, s)`. -/
theorem blockOut_eq_G (A0 A1 A2 : SArg.Idx → EReal) (x0 x1 x2 : InBlock) (u : Fin 1) (hh : Fin 2) (d : Fin 128)
    (s : Fin 4096) (b : Fin 4) (h : Fin 16) (i : SRes.Idx)
    (h0 : (i 0).val = b.val) (h1 : (i 1).val = h.val) (h2 : (i 2).val = d.val) (h3 : (i 3).val = s.val)
    (e0 : ∀ (s' : Fin 4096) (d' : Fin 128), x0 (ix4 u hh s' d') = A0 (ix4 b h s' d'))
    (e1 : ∀ (s' : Fin 4096) (d' : Fin 128), x1 (ix4 u hh s' d') = A1 (ix4 b h s' d'))
    (e2 : ∀ (s' : Fin 4096) (d' : Fin 128), x2 (ix4 u hh s' d') = A2 (ix4 b h s' d')) :
    blockOut x0 x1 x2 (ix4 u hh d s) = G quarter negInf A0 A1 A2 i := by
  have hi : i = ix4 b h d s := funext fun a => Fin.ext (by
    match a with
    | ⟨0, _⟩ => exact h0
    | ⟨1, _⟩ => exact h1
    | ⟨2, _⟩ => exact h2
    | ⟨3, _⟩ => exact h3)
  rw [hi, blockOut_ix4, G_ix4,
    show blockSlice x0 u hh = slice A0 b h from funext fun s' => funext fun d' => e0 s' d',
    show blockSlice x1 u hh = slice A1 b h from funext fun s' => funext fun d' => e1 s' d',
    show blockSlice x2 u hh = slice A2 b h from funext fun s' => funext fun d' => e2 s' d']

/-! ## What a point writes back, and the cover -/

/-- WHAT POINT `t` WRITES BACK is block `t` of `G` of the argument arrays as the region finds them. -/
theorem flushed_eq (c : Dev nD) (t : Fin cfg0.N) :
    (dats m 0 c).flushed 3 t
      = ((cfg0.win 3).blk t).view.read (Elt Ideal) (G quarter negInf (V m c main_arg0) (V m c main_arg1) (V m c main_arg2)) := by
  rw [Cert.KernelIdeal.Value.flushed3]
  obtain ⟨a00, a01, a02, a03, a10, a11, a12, a13, a20, a21, a22, a23, o2, o3, b0, b1⟩ := idx_facts t
  funext y
  show out0_3 (F := Ideal) (iblk m c 0 t) (iblk m c 1 t) (iblk m c 2 t) y
    = G quarter negInf (V m c main_arg0) (V m c main_arg1) (V m c main_arg2) (((cfg0.win 3).blk t).view.emb y)
  refine (congrFun (out_eq_blockOut (iblk m c 0 t) (iblk m c 1 t) (iblk m c 2 t)) y).trans ?_
  obtain ⟨u, hh, d, s, rfl⟩ : ∃ (u : Fin 1) (hh : Fin 2) (d : Fin 128) (s : Fin 4096), y = ix4 u hh d s :=
    ⟨y 0, y 1, y 2, y 3, eq_ix4 y⟩
  have hu : u.val = 0 := by omega
  have hhh : hh.val < 2 := hh.isLt
  refine blockOut_eq_G (V m c main_arg0) (V m c main_arg1) (V m c main_arg2) (iblk m c 0 t) (iblk m c 1 t) (iblk m c 2 t)
    u hh d s ⟨win0_3.index t (0 : Fin 4), by omega⟩ ⟨win0_3.index t (1 : Fin 4) * 2 + hh.val, by omega⟩
    (((cfg0.win 3).blk t).view.emb (ix4 u hh d s)) ?_ ?_ ?_ ?_ ?_ ?_ ?_
  · show win0_3.index t (0 : Fin 4) * 1 + 1 * u.val = win0_3.index t (0 : Fin 4); omega
  · show win0_3.index t (1 : Fin 4) * 2 + 1 * hh.val = win0_3.index t (1 : Fin 4) * 2 + hh.val; omega
  · show win0_3.index t (2 : Fin 4) * 128 + 1 * d.val = d.val; omega
  · show win0_3.index t (3 : Fin 4) * 4096 + 1 * s.val = s.val; omega
  · intro s' d'
    show V m c main_arg0 (((cfg0.win 0).blk t).view.emb (ix4 u hh s' d')) = _
    refine congrArg (V m c main_arg0) (funext fun a => Fin.ext ?_)
    match a with
    | ⟨0, _⟩ => show win0_0.index t (0 : Fin 4) * 1 + 1 * u.val = win0_3.index t (0 : Fin 4); omega
    | ⟨1, _⟩ => show win0_0.index t (1 : Fin 4) * 2 + 1 * hh.val = win0_3.index t (1 : Fin 4) * 2 + hh.val; omega
    | ⟨2, _⟩ => show win0_0.index t (2 : Fin 4) * 4096 + 1 * s'.val = s'.val; omega
    | ⟨3, _⟩ => show win0_0.index t (3 : Fin 4) * 128 + 1 * d'.val = d'.val; omega
  · intro s' d'
    show V m c main_arg1 (((cfg0.win 1).blk t).view.emb (ix4 u hh s' d')) = _
    refine congrArg (V m c main_arg1) (funext fun a => Fin.ext ?_)
    match a with
    | ⟨0, _⟩ => show win0_1.index t (0 : Fin 4) * 1 + 1 * u.val = win0_3.index t (0 : Fin 4); omega
    | ⟨1, _⟩ => show win0_1.index t (1 : Fin 4) * 2 + 1 * hh.val = win0_3.index t (1 : Fin 4) * 2 + hh.val; omega
    | ⟨2, _⟩ => show win0_1.index t (2 : Fin 4) * 4096 + 1 * s'.val = s'.val; omega
    | ⟨3, _⟩ => show win0_1.index t (3 : Fin 4) * 128 + 1 * d'.val = d'.val; omega
  · intro s' d'
    show V m c main_arg2 (((cfg0.win 2).blk t).view.emb (ix4 u hh s' d')) = _
    refine congrArg (V m c main_arg2) (funext fun a => Fin.ext ?_)
    match a with
    | ⟨0, _⟩ => show win0_2.index t (0 : Fin 4) * 1 + 1 * u.val = win0_3.index t (0 : Fin 4); omega
    | ⟨1, _⟩ => show win0_2.index t (1 : Fin 4) * 2 + 1 * hh.val = win0_3.index t (1 : Fin 4) * 2 + hh.val; omega
    | ⟨2, _⟩ => show win0_2.index t (2 : Fin 4) * 4096 + 1 * s'.val = s'.val; omega
    | ⟨3, _⟩ => show win0_2.index t (3 : Fin 4) * 128 + 1 * d'.val = d'.val; omega

/-- An index of the result is in point `t`'s block iff each coordinate is in the block's range on its axis. -/
theorem mem_blk (t : Fin cfg0.N) (i : S4x16x128x4096.Idx) :
    i ∈ ((cfg0.win 3).blk t).view.set ↔ ∀ a : Fin 4, win0_3.index t a * S1x2x128x4096.size a ≤ (i a).val
      ∧ (i a).val < win0_3.index t a * S1x2x128x4096.size a + S1x2x128x4096.size a := by
  show i ∈ ((View.whole main_v0).slice (win0_3.rect t)).set ↔ _
  rw [View.set_slice_whole, Rect.mem_set_unit]
  exact Iff.rfl

/-- Every index of the result is in the block of the point for its batch entry and its head's pair. -/
theorem covered (i : S4x16x128x4096.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 128 := (i 2).isLt
  have hi3 : (i 3).val < 4096 := (i 3).isLt
  obtain ⟨t, ht⟩ := idx_onto ⟨(i 0).val, hi0⟩ ⟨(i 1).val / 2, by omega⟩
  have q0 : win0_3.index t (0 : Fin 4) = (i 0).val := congrFun ht 0
  have q1 : win0_3.index t (1 : Fin 4) = (i 1).val / 2 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 2 ≤ (i 1).val ∧ (i 1).val < win0_3.index t (1 : Fin 4) * 2 + 2; omega
  | ⟨2, _⟩ => show win0_3.index t (2 : Fin 4) * 128 ≤ (i 2).val ∧ (i 2).val < win0_3.index t (2 : Fin 4) * 128 + 128; omega
  | ⟨3, _⟩ => show win0_3.index t (3 : Fin 4) * 4096 ≤ (i 3).val ∧ (i 3).val < win0_3.index t (3 : Fin 4) * 4096 + 4096; omega

/-! ## The array after the run, and the run -/

/-- THE RESULT ARRAY after the run is `G` of the argument arrays. -/
theorem final (c : Dev nD) :
    (dats m 0 c).arrAt 3 cfg0.N
      = G quarter negInf (m ((c : Thread nD τ).loc main_arg0)) (m ((c : Thread nD τ).loc main_arg1)) (m ((c : Thread nD τ).loc main_arg2)) :=
  (dats m 0 c).arrAt_eq_of_cover 3
    (G quarter negInf (V m c main_arg0) (V m c main_arg1) (V m c main_arg2)) (fun t _ => flushed_eq m c t) covered

/-- The kernel's run, read: it terminates, the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G quarter negInf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.FeatureAttention.Kernel

end
-- ==== Proof.RefValue.lean ====
/-
  The reference, stage by stage, is the specification.

  The host program computes, over whole [4, 16, ·, ·] arrays: the batched product contracting the sequence axis, the scale,
  the row maximum (a `reduce` with `maximum` from −∞, then one more `maximum` with −∞, which changes nothing), the
  shifted exponential, its row sum (from 0), the quotient, and the batched product with the values contracting the
  feature axis.  Each stage read at explicit coordinates (batch, head, feature, ·) is the matching piece of
  `FeatureAttention`'s one-slice function of the (batch, head) slices of the arguments.
-/
import proofs.«120604_j13554916786727_2_alg».proof.Proof.Gen.ReferenceIdeal.Read
import proofs.«120604_j13554916786727_2_alg».proof.Proof.Spec
import Idealize.ShloMosaic.PureOps.Ideal.Laws

noncomputable section

namespace Cert.FeatureAttention.Reference

open Cert.ReferenceIdeal Cert.ReferenceIdeal.Gen Cert.ReferenceIdeal.Read
open Idealize.ShloMosaic Idealize.ShloMosaic.ValueIdx Cert.FeatureAttention

/-- An argument array at `Ideal`. -/
abbrev Arr : Type := S4x16x4096x128.Idx → EReal

variable (x0 x1 x2 : Arr)

/-! ## The stages' index maps at explicit coordinates -/

theorem lidx_v0 (b : Fin 4) (h : Fin 16) (d e : Fin 128) (k : Fin 4096) :
    lidx_main_v0 (ix4 b h d e) k = ix4 b h k d :=
  funext fun a => by match a with | ⟨0, _⟩ => rfl | ⟨1, _⟩ => rfl | ⟨2, _⟩ => rfl | ⟨3, _⟩ => rfl

theorem ridx_v0 (b : Fin 4) (h : Fin 16) (d e : Fin 128) (k : Fin 4096) :
    ridx_main_v0 (ix4 b h d e) k = ix4 b h k e :=
  funext fun a => by match a with | ⟨0, _⟩ => rfl | ⟨1, _⟩ => rfl | ⟨2, _⟩ => rfl | ⟨3, _⟩ => rfl

/-- Reducing the last axis of a [4, 16, 128, 128] array. -/
theorem redLast : S4x16x128x128.Reduces [(3 : Fin 4)] S4x16x128 := by decide

theorem lift_redLast (b : Fin 4) (h : Fin 16) (d e : Fin 128) :
    redLast.lift (ix3 b h d) e = ix4 b h d e :=
  funext fun a => Fin.ext (by match a with | ⟨0, _⟩ => rfl | ⟨1, _⟩ => rfl | ⟨2, _⟩ => rfl | ⟨3, _⟩ => rfl)

theorem idx_v7 (b : Fin 4) (h : Fin 16) (d e : Fin 128) : idx_main_v7 (ix4 b h d e) = ix4 b h d (0 : Fin 1) :=
  funext fun a => by match a with | ⟨0, _⟩ => rfl | ⟨1, _⟩ => rfl | ⟨2, _⟩ => rfl | ⟨3, _⟩ => rfl

theorem idx_v6 (b : Fin 4) (h : Fin 16) (d : Fin 128) (z : Fin 1) : idx_main_v6 (ix4 b h d z) = ix3 b h d :=
  funext fun a => by match a with | ⟨0, _⟩ => rfl | ⟨1, _⟩ => rfl | ⟨2, _⟩ => rfl

theorem idx_v10 (b : Fin 4) (h : Fin 16) (d e : Fin 128) : idx_main_v10 (ix3 b h d) e = ix4 b h d e :=
  funext fun a => by match a with | ⟨0, _⟩ => rfl | ⟨1, _⟩ => rfl | ⟨2, _⟩ => rfl | ⟨3, _⟩ => rfl

theorem idx_v12 (b : Fin 4) (h : Fin 16) (d e : Fin 128) : idx_main_v12 (ix4 b h d e) = ix4 b h d (0 : Fin 1) :=
  funext fun a => by match a with | ⟨0, _⟩ => rfl | ⟨1, _⟩ => rfl | ⟨2, _⟩ => rfl | ⟨3, _⟩ => rfl

theorem idx_v11 (b : Fin 4) (h : Fin 16) (d : Fin 128) (z : Fin 1) : idx_main_v11 (ix4 b h d z) = ix3 b h d :=
  funext fun a => by match a with | ⟨0, _⟩ => rfl | ⟨1, _⟩ => rfl | ⟨2, _⟩ => rfl

theorem lidx_v14 (b : Fin 4) (h : Fin 16) (d : Fin 128) (s : Fin 4096) (e : Fin 128) :
    lidx_main_v14 (ix4 b h d s) e = ix4 b h d e :=
  funext fun a => by match a with | ⟨0, _⟩ => rfl | ⟨1, _⟩ => rfl | ⟨2, _⟩ => rfl | ⟨3, _⟩ => rfl

theorem ridx_v14 (b : Fin 4) (h : Fin 16) (d : Fin 128) (s : Fin 4096) (e : Fin 128) :
    ridx_main_v14 (ix4 b h d s) e = ix4 b h s e :=
  funext fun a => by match a with | ⟨0, _⟩ => rfl | ⟨1, _⟩ => rfl | ⟨2, _⟩ => rfl | ⟨3, _⟩ => rfl

/-! ## The stages -/

/-- The scaled scores: the batched product at (b, h, d, e) sums over the sequence positions of slice (b, h). -/
theorem ref_score (b : Fin 4) (h : Fin 16) (d e : Fin 128) :
    val_main_v2 (F := Ideal) x0 x1 (ix4 b h d e) = score quarter (slice x0 b h) (slice x1 b h) d e := by
  rw [val_main_v2_apply, val_main_v0_apply, val_main_v1_apply, val_main_cst_apply]
  simp only [lidx_v0, ridx_v0]
  rfl

/-- The row maximum: the host's reduce is the fold of `max` from −∞ over the row, and the further `maximum` with −∞ is absorbed. -/
theorem ref_rowMax (b : Fin 4) (h : Fin 16) (d : Fin 128) :
    val_main_v5 (F := Ideal) x0 x1 (ix3 b h d) = rowMax negInf (score quarter (slice x0 b h) (slice x1 b h) d) := by
  rw [val_main_v5_apply, val_main_v4_apply, val_main_cst_1_apply]
  unfold val_main_v3
  rw [Host.reduce_eq_fold_single FloatOps.maximumf _ _ reducesTo_S4x16x128x128_S4x16x128_d3 redLast h_S_]
  have hf : (val_main_v2 (F := Ideal) x0 x1 ∘ redLast.lift (ix3 b h d))
      = score quarter (slice x0 b h) (slice x1 b h) d :=
    funext fun e => (congrArg (val_main_v2 (F := Ideal) x0 x1) (lift_redLast b h d e)).trans (ref_score x0 x1 b h d e)
  rw [hf]
  exact max_rowMax _ _

/-- The shifted exponentials. -/
theorem ref_shifted (b : Fin 4) (h : Fin 16) (d e : Fin 128) :
    val_main_v9 (F := Ideal) x0 x1 (ix4 b h d e) = shifted quarter negInf (slice x0 b h) (slice x1 b h) d e := by
  rw [val_main_v9_apply, val_main_v8_apply, val_main_v7_apply, idx_v7, val_main_v6_apply, idx_v6, ref_score, ref_rowMax]
  rfl

/-- Their row sums: the host's sum starts from the zero word. -/
theorem ref_rowSum (b : Fin 4) (h : Fin 16) (d : Fin 128) :
    val_main_v10 (F := Ideal) x0 x1 (ix3 b h d)
      = ∑ e : Fin 128, shifted quarter negInf (slice x0 b h) (slice x1 b h) d e := by
  rw [val_main_v10_apply, val_main_cst_2_apply]
  simp only [idx_v10, ref_shifted]
  rw [Ideal.ofBits_def, Ideal.ofBits_zero_f32, zero_add]

/-- The softmax weights. -/
theorem ref_weight (b : Fin 4) (h : Fin 16) (d e : Fin 128) :
    val_main_v13 (F := Ideal) x0 x1 (ix4 b h d e) = weight quarter negInf (slice x0 b h) (slice x1 b h) d e := by
  rw [val_main_v13_apply, val_main_v12_apply, idx_v12, val_main_v11_apply, idx_v11, ref_shifted, ref_rowSum]
  rfl

/-- THE REFERENCE'S RESULT is the specification's function of its arguments. -/
theorem ref_eq_G : val_main_v14 (F := Ideal) x0 x1 x2 = G quarter negInf x0 x1 x2 := by
  funext i
  obtain ⟨b, h, d, s, rfl⟩ : ∃ (b : Fin 4) (h : Fin 16) (d : Fin 128) (s : Fin 4096), i = ix4 b h d s :=
    ⟨i 0, i 1, i 2, i 3, eq_ix4 i⟩
  rw [val_main_v14_apply, G_ix4]
  simp only [lidx_v14, ridx_v14, ref_weight]
  rfl

end Cert.FeatureAttention.Reference

end
-- ==== Proof.lean ====
/-
  Feature attention: a kernel that handles two heads per grid point against a whole-array reference.

  Both programs take `q k v : [4, 16, 4096, 128]` and return `[4, 16, 128, 4096]`.  For every (batch, head) slice the
  result is `out d s = Σ_e p d e · v s e`, where `p` is the row softmax of the 128 × 128 score matrix
  `score d e = (Σ_s q s d · k s e) · 1/4` (`Spec.lean`: `FeatureAttention.G`).

  The reference computes this with two batched products and the host's softmax (row maximum from −∞, shifted
  exponential, row sum, quotient); read one stage at a time at explicit coordinates it is `G` (`RefValue.lean`).  The
  kernel's body computes it per head on [4096, 128] matrices — the two products into zero accumulators, two lane reductions
  kept as columns — once for each of the block's two heads (`HeadValue.lean`); its two stores tile the output block
  (`BlockValue.lean`); and the blocks, one per (batch entry, head pair), tile the result array (`ArrayValue.lean`).
  The two sides apply the same operations to the same numbers with the same literals (the scale 1/4, −∞, 0), and sums
  over the same index sets, so they agree on all extended reals: the inputs' finiteness is never used.  The only step that
  is not a reading of definitions is that taking the maximum with −∞ once more after folding `max` from −∞ changes
  nothing.  Nothing was rewritten between the kernel and its idealization, so that claim is trivial; the three frames
  are the generated ones (the reference's is its generated run with the result dropped).
-/
import proofs.«120604_j13554916786727_2_alg».proof.Defs
import proofs.«120604_j13554916786727_2_alg».proof.Proof.Gen.Kernel
import proofs.«120604_j13554916786727_2_alg».proof.Proof.Gen.Kernel.Skeleton
import proofs.«120604_j13554916786727_2_alg».proof.Proof.Gen.Kernel.Launch
import proofs.«120604_j13554916786727_2_alg».proof.Proof.Gen.Kernel.Points
import proofs.«120604_j13554916786727_2_alg».proof.Proof.Gen.Kernel.Frame
import proofs.«120604_j13554916786727_2_alg».proof.Proof.Gen.KernelIdeal
import proofs.«120604_j13554916786727_2_alg».proof.Proof.Gen.KernelIdeal.Skeleton
import proofs.«120604_j13554916786727_2_alg».proof.Proof.Gen.KernelIdeal.Launch
import proofs.«120604_j13554916786727_2_alg».proof.Proof.Gen.KernelIdeal.Points
import proofs.«120604_j13554916786727_2_alg».proof.Proof.Gen.KernelIdeal.Frame
import proofs.«120604_j13554916786727_2_alg».proof.Proof.Gen.ReferenceIdeal
import proofs.«120604_j13554916786727_2_alg».proof.Proof.Gen.Pre_finite_inputs
import proofs.«120604_j13554916786727_2_alg».proof.Proof.Gen.KernelIdeal.Value
import proofs.«120604_j13554916786727_2_alg».proof.Proof.Gen.ReferenceIdeal.Run
import proofs.«120604_j13554916786727_2_alg».proof.Proof.Gen.ReferenceIdeal.Read
import proofs.«120604_j13554916786727_2_alg».proof.Proof.ArrayValue
import proofs.«120604_j13554916786727_2_alg».proof.Proof.RefValue
import Idealize.ShloMosaic.Adequacy
import Idealize.ShloMosaic.Init

noncomputable section

namespace Cert.Proof

open Idealize.ShloMosaic Idealize.SL.Sem Cert.FeatureAttention

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `G` of them (its blocks assembled) and the reference's
    at its stages' composed term, which read stage by stage is the same `G`. -/
theorem algebraic : Cert.algebraic_KernelIdeal_ReferenceIdeal := by
  intro m ρ m' ρ' _ hagree
  refine ⟨_, Cert.FeatureAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.FeatureAttention.Reference.ref_eq_G _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
